-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x1x200 : Shape := ⟨4, ![8192, 1, 1, 200]⟩
abbrev S8192 : Shape := ⟨1, ![8192]⟩
abbrev S_ : Shape := ⟨0, ![]⟩

class Facts : Prop where
  bcast_S_S8192x1x1x200 : S_.BroadcastsInDim S8192x1x1x200 (![] : Fin 0 → Fin S8192x1x1x200.rank)
  reducesTo_S8192x1x1x200_S_d0_1_2_3 : S8192x1x1x200.ReducesTo [0, 1, 2, 3] S_
  h_S_ : 0 < S_.numel

variable [Facts]

def fn {F : FTy → Type} [FloatOps F] (main_arg0 : FVec F S8192x1x1x200 .f32) (main_arg1 : IVec S8192 32) : IVec S_ 1 :=
  let main_v0 : FVec F S8192x1x1x200 .f32 := Host.absf main_arg0
  let main_cst : FVec F S_ .f32 := constant S_ .f32 0x7F800000#32
  let main_v1 : FVec F S8192x1x1x200 .f32 := broadcastInDim S8192x1x1x200 ![] bcast_S_S8192x1x1x200 main_cst
  let main_v2 : IVec S8192x1x1x200 1 := cmpf .olt main_v0 main_v1
  let main_c : IVec S_ 1 := constantI S_ 1 1#1
  let main_v3 : IVec S_ 1 := (fun x v => Host.reduce IntOp.andi x v reducesTo_S8192x1x1x200_S_d0_1_2_3 h_S_) main_v2 main_c
  main_v3
-- ==== Kernel.lean ====
abbrev S8192x1x1x200 : Shape := ⟨4, ![8192, 1, 1, 200]⟩
abbrev S8192 : Shape := ⟨1, ![8192]⟩
abbrev S8192x200 : Shape := ⟨2, ![8192, 200]⟩
abbrev S_ : Shape := ⟨0, ![]⟩
abbrev S8192x1 : Shape := ⟨2, ![8192, 1]⟩
abbrev S1x8192 : Shape := ⟨2, ![1, 8192]⟩
abbrev S256x200 : Shape := ⟨2, ![256, 200]⟩
abbrev S256x1 : Shape := ⟨2, ![256, 1]⟩
abbrev S256x8192 : Shape := ⟨2, ![256, 8192]⟩
abbrev S256 : Shape := ⟨1, ![256]⟩

abbrev nBuf : Space → Nat
  | .hbm => 16
  | .vmem => 11
  | .smem => 0
  | _ => 0

abbrev bufTy : (tb : Table) → Fin (tcTables nBuf tb) → BufTy
  | .hbm, ⟨0, _⟩ => ⟨S8192x1x1x200, .f32⟩
  | .hbm, ⟨1, _⟩ => ⟨S8192, .i32⟩
  | .hbm, ⟨2, _⟩ => ⟨S8192x200, .f32⟩
  | .hbm, ⟨3, _⟩ => ⟨S8192x200, .bf16⟩
  | .hbm, ⟨4, _⟩ => ⟨S8192x200, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x1, .i32⟩
  | .hbm, ⟨10, _⟩ => ⟨S1x8192, .i32⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S256x200, .bf16⟩
  | .local _ .vmem, ⟨1, _⟩ => ⟨S256x200, .bf16⟩
  | .local _ .vmem, ⟨2, _⟩ => ⟨S8192x200, .bf16⟩
  | .local _ .vmem, ⟨3, _⟩ => ⟨S256x1, .f32⟩
  | .local _ .vmem, ⟨4, _⟩ => ⟨S256x1, .f32⟩
  | .local _ .vmem, ⟨5, _⟩ => ⟨S1x8192, .f32⟩
  | .local _ .vmem, ⟨6, _⟩ => ⟨S256x1, .i32⟩
  | .local _ .vmem, ⟨7, _⟩ => ⟨S256x1, .i32⟩
  | .local _ .vmem, ⟨8, _⟩ => ⟨S1x8192, .i32⟩
  | .local _ .vmem, ⟨9, _⟩ => ⟨S256x1, .f32⟩
  | .local _ .vmem, ⟨10, _⟩ => ⟨S256x1, .f32⟩
  | _, _ => ⟨S8192x1x1x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8192x1x1x200_S8192x200 : S8192x1x1x200.ShapeCasts S8192x200
  bitsLt_bf16_f32 : FTy.bits .bf16 < FTy.bits .f32
  reducesTo_S8192x200_S8192_d1 : S8192x200.ReducesTo [1] S8192
  h_S_ : 0 < S_.numel
  shapeCasts_S8192_S8192x1 : S8192.ShapeCasts S8192x1
  shapeCasts_S8192_S1x8192 : S8192.ShapeCasts S1x8192
  inb_S256x200_S256x200_0_0 : ∀ a, (![0, 0] : Fin 2 → Nat) a + S256x200.size a ≤ S256x200.size a
  h_S256x200 : 0 < S256x200.numel
  shapeCasts_S256x200_S256x200 : S256x200.ShapeCasts S256x200
  inb_S8192x200_S8192x200_0_0 : ∀ a, (![0, 0] : Fin 2 → Nat) a + S8192x200.size a ≤ S8192x200.size a
  h_S8192x200 : 0 < S8192x200.numel
  shapeCasts_S8192x200_S8192x200 : S8192x200.ShapeCasts S8192x200
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  iota_S256x1_d0_w32 : S256x1.Iotas .tc 32 [0]
  iota_S1x8192_d1_w32 : S1x8192.Iotas .tc 32 [1]
  reduces_S256x8192_S256 : S256x8192.Reduces [1] S256
  shapeCasts_S256_S256x1 : S256.ShapeCasts S256x1
  reducesTo_S8192x1_S_d0_1 : S8192x1.ReducesTo [0, 1] S_
  dot_S256x200_S8192x200_S256x8192_1_1_0_0_n_n_wf : DotDims.WF S256x200 S8192x200 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x200.size a ≤ S8192x200.size a
  hwx0_0 : ∀ i : grid0.Coords, EltTy.bits .bf16 = 32 ∨ (Rect.block (s := S8192x200) S256x200.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x200.size a ≤ S8192x200.size a
  hwx0_1 : ∀ i : grid0.Coords, EltTy.bits .bf16 = 32 ∨ (Rect.block (s := S8192x200) S8192x200.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .i32 = 32 ∨ (Rect.block (s := S8192x1) S256x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .i32 = 32 ∨ (Rect.block (s := S1x8192) S1x8192.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S8192x1.size a
  hwx0_6 : ∀ i : grid0.Coords, EltTy.bits .f32 = 32 ∨ (Rect.block (s := S8192x1) S256x1.size (cc0_transform_6 i) (hinb0_6 i)).WholeWords (EltTy.packing .f32)

variable [Facts₀]

def dot_S256x200_S8192x200_S256x8192_1_1_0_0_n_n : DotDims S256x200 S8192x200 S256x8192 where
  lhsContracting := [1]
  rhsContracting := [1]
  lhsNonContracting := [0]
  rhsNonContracting := [0]
  lhsBatch := []
  rhsBatch := []
  wf := dot_S256x200_S8192x200_S256x8192_1_1_0_0_n_n_wf

abbrev win0_0 : Pipeline.Window sig grid0 :=
  Pipeline.Window.ofSpec (Memref.whole main_v1) S256x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1x1x200 : Shape := ⟨4, ![8192, 1, 1, 200]⟩
abbrev S8192 : Shape := ⟨1, ![8192]⟩
abbrev S8192x200 : Shape := ⟨2, ![8192, 200]⟩
abbrev S_ : Shape := ⟨0, ![]⟩
abbrev S200x8192 : Shape := ⟨2, ![200, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 52
  | .vmem => 0
  | .smem => 0
  | _ => 0

abbrev bufTy : (tb : Table) → Fin (tcTables nBuf tb) → BufTy
  | .hbm, ⟨0, _⟩ => ⟨S8192x1x1x200, .f32⟩
  | .hbm, ⟨1, _⟩ => ⟨S8192, .i32⟩
  | .hbm, ⟨2, _⟩ => ⟨S8192x200, .f32⟩
  | .hbm, ⟨3, _⟩ => ⟨S8192x200, .f32⟩
  | .hbm, ⟨4, _⟩ => ⟨S_, .f32⟩
  | .hbm, ⟨5, _⟩ => ⟨S8192, .f32⟩
  | .hbm, ⟨6, _⟩ => ⟨S200x8192, .f32⟩
  | .hbm, ⟨7, _⟩ => ⟨S8192x8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S8192x1x1x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v27 : Ref sig .tc := ⟨.hbm, 40, rfl⟩
abbrev main_cst_5 : Ref sig .tc := ⟨.hbm, 41, rfl⟩
abbrev main_call2_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  shapeCasts_S8192x1x1x200_S8192x200 : S8192x1x1x200.ShapeCasts S8192x200
  reducesTo_S8192x200_S8192_d1 : S8192x200.ReducesTo [1] S8192
  h_S_ : 0 < S_.numel
  transposes_S8192x200_S200x8192_1_0 : S8192x200.Transposes [1, 0] S200x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x200_S200x8192_S8192x8192_1_0_0_1_n_n_wf : DotDims.WF S8192x200 S200x8192 S8192x8192 [1] [0] [0] [1] [] []

variable [Facts₀]

def dot_S8192x200_S200x8192_S8192x8192_1_0_0_1_n_n : DotDims S8192x200 S200x8192 S8192x8192 where
  lhsContracting := [1]
  rhsContracting := [0]
  lhsNonContracting := [0]
  rhsNonContracting := [1]
  lhsBatch := []
  rhsBatch := []
  wf := dot_S8192x200_S200x8192_S8192x8192_1_0_0_1_n_n_wf

class Facts : Prop extends Facts₀ where

variable [Facts]
-- ==== Proof.LibSharedFrameTail.lean ====
/-
  A pipeline's frame run when several input windows read one array and the program goes on after the region.

  One region on a static grid, a kernel with no semaphore of its own, host operations before the region and straight
  lines of host operations after it. Several input windows may read one array, so the arrays behind the windows need not
  be distinct; how a shared array is dealt among its windows is the caller's statement (`hsplit`), as for a region with
  nothing after it. The lines after the region may read ONE window's array — an output window `wo` whose array no other
  window reads, held whole at the full share — and may read and write the buffers that bypass the region; they write no
  array. While they run, every other window's share of its array is set aside untouched.

  The conclusion is the usual one read after the lines: every window's array at the contents computed from the proof
  data after all write-backs, every bypassing buffer at what the lines leave from the region's exit.
-/
import Idealize.ShloMosaic.Lib.Pipeline.FrameSuffix

noncomputable section

namespace Cert.SharedLaunchTail

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic.TcCoe Idealize.ShloMosaic.Rounds

variable {nD : Nat} {τ : Topo} {sig : RefSig} {Val : EltTy → Type}

/-! ## The lines after the region, reading one unshared array -/

section Lines

variable {Ix : Type} [DecidableEq Ix] {Name : Type} [DecidableEq Name] {U : Type} [URA U] {Lvl : Type}
variable {Λ₀ : Idealize.SL.Sem.Labels} {P : Type} [Fintype P] [DecidableEq P]
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

variable (sig) in
/-- The device buffers the lines may touch: window `wo`'s array and the buffers that bypass the region. -/
def oneRefs {gr : Nat} {W : Nat} (win : Fin W → WinSpec sig gr) (wo : Fin W) : Finset (DevRef τ sig) :=
  (insert (arrRef win wo) (restRefs sig win)).map ⟨Proc.devRef (sig := sig) .tc, Proc.devRef_injective _⟩

omit [Fintype P] [DecidableEq P] in
/-- An operation's buffers are ones the lines may touch when they are TensorCore references (`h₁`) and none is the array
    of a window whose array is not `wo`'s (`h₂`). -/
theorem sub_oneRefs {gr : Nat} {W : Nat} (win : Fin W → WinSpec sig gr) (wo : Fin W) (op : HloOp τ sig Val)
    (h₁ : op.bufs ⊆ StableHlo.tcRefs τ sig)
    (h₂ : ∀ w, arrRef win w ≠ arrRef win wo → Proc.devRef .tc (arrRef win w) ∉ op.bufs) :
    op.bufs ⊆ oneRefs (τ := τ) sig win wo := by
  classical
  intro b hb
  have hu : b ∈ ucRefs τ sig := sub_ucRefs op h₁ hb
  simp only [oneRefs, ucRefs, StableHlo.tcRefs, restRefs, Finset.mem_map, Finset.mem_filter, Finset.mem_insert,
    Finset.mem_sdiff, Finset.mem_image, Finset.mem_univ, true_and, Function.Embedding.coeFn_mk] at hu ⊢
  obtain ⟨⟨r, rfl⟩, hr⟩ := hu
  refine ⟨r, ?_, rfl⟩
  by_cases h : ∃ w, arrRef win w = r
  · obtain ⟨w, rfl⟩ := h
    by_cases e : arrRef win w = arrRef win wo
    · exact Or.inl e
    · exact absurd hb (h₂ w e)
  · exact Or.inr ⟨hr, h⟩

omit [Fintype P] [DecidableEq P] in
/-- The region's exit contents read at the array of a window no other window shares its array with: that window's. -/
theorem withArrays_one {gr : Nat} {W : Nat} (win : Fin W → WinSpec sig gr) (wo : Fin W)
    (hwo : ∀ w, arrRef win w = arrRef win wo → w = wo)
    (c : Dev nD) (V : Valuation τ sig Val) (A : (w : Fin W) → Buf Val ((win w).arr.view.loc (c.tc : Thread nD τ))) :
    withArrays win c V A (Proc.devRef .tc (arrRef win wo)) = A wo := by
  unfold withArrays
  have h : ∃ w', Proc.devRef .tc (arrRef win w') = Proc.devRef (τ := τ) .tc (arrRef win wo) := ⟨wo, rfl⟩
  rw [dif_pos h]
  suffices ∀ (w' : Fin W) (e : Proc.devRef .tc (arrRef win w') = Proc.devRef (τ := τ) .tc (arrRef win wo)),
      cast (congrArg (fun b' : DevRef τ sig => b'.ty.Contents Val) e) (A w') = A wo from this _ h.choose_spec
  intro w' e
  obtain rfl : w' = wo := hwo w' (Proc.devRef_injective _ e)
  rfl

omit [Fintype P] [DecidableEq P] in
/-- Those buffers held at `Wv`: the one array, and the bypassing buffers. -/
theorem held_oneRefs {gr : Nat} {W : Nat} (win : Fin W → WinSpec sig gr) (wo : Fin W) (c : Dev nD) (Wv : Valuation τ sig Val) :
    (StableHlo.held (c.tc : Thread nD τ) (oneRefs sig win wo) Wv : sProp 𝕄)
      = iprop((((c.tc : Thread nD τ).loc (arrRef win wo)) ↦{fullShare} Wv (Proc.devRef .tc (arrRef win wo)))
          ∗ unscopedRest win c (fun b => Wv (Proc.devRef .tc b))) := by
  classical
  have hnr : arrRef win wo ∉ restRefs sig win := fun h =>
    (Finset.mem_sdiff.mp h).2 (Finset.mem_image.mpr ⟨wo, Finset.mem_univ _, rfl⟩)
  unfold StableHlo.held oneRefs unscopedRest
  rw [bigSep_map, BI.bigSep_insert hnr]
  rfl

omit [Fintype P] [DecidableEq P] in
set_option backward.isDefEq.respectTransparency.types false in
/-- The lines run from the one array at `A wo` and the bypassing buffers at `V` to the same array and the bypassing
    buffers at what the lines compute from the region's exit contents; `R` — the other windows' shares — is carried across. -/
theorem tail_seqs_one [Preorder Lvl] {gr : Nat} {W : Nat} (win : Fin W → WinSpec sig gr) (wo : Fin W)
    (hwo : ∀ w, arrRef win w = arrRef win wo → w = wo)
    (c : Dev nD) (V : Valuation τ sig Val) (A : (w : Fin W) → Buf Val ((win w).arr.view.loc (c.tc : Thread nD τ)))
    (opss : List (List (HloOp τ sig Val)))
    (hsub : ∀ ops ∈ opss, ∀ op ∈ ops, op.bufs ⊆ oneRefs sig win wo)
    (hfresh : ∀ ops ∈ opss, ∀ op ∈ ops, op.fresh = ∅)
    (hkeep : ∀ ops ∈ opss, ∀ op ∈ ops, Proc.devRef .tc (arrRef win wo) ∉ op.writes)
    (R : sProp 𝕄) (Q' : PUnit → sProp 𝕄) :
    iprop((iprop((((c.tc : Thread nD τ).loc (arrRef win wo)) ↦{fullShare} A wo)
              ∗ unscopedRest win c (fun b => StableHlo.after opss.flatten (withArrays win c V A) (Proc.devRef .tc b)) ∗ R) -∗ Q' ⟨⟩)
        ∗ boundary (c.tc : Thread nD τ) ∗ (((c.tc : Thread nD τ).loc (arrRef win wo)) ↦{fullShare} A wo)
        ∗ unscopedRest win c (fun b => V (Proc.devRef .tc b)) ∗ R)
      ⊢ wp frame (wpE 𝔻 𝕍 (c.tc : Thread nD τ) none) Set.univ (chain (opss.map StableHlo.seq)) Q' := by
  classical
  have hW : (StableHlo.held (c.tc : Thread nD τ) (oneRefs sig win wo) (withArrays win c V A) : sProp 𝕄)
      = iprop((((c.tc : Thread nD τ).loc (arrRef win wo)) ↦{fullShare} A wo) ∗ unscopedRest win c (fun b => V (Proc.devRef .tc b))) := by
    rw [held_oneRefs, withArrays_one win wo hwo c V A]
    congr 1
    unfold unscopedRest
    exact bigSep_congr fun b hb => by
      beta_reduce
      rw [withArrays_of_ne win c V A b fun w e => (Finset.mem_sdiff.mp hb).2 (Finset.mem_image.mpr ⟨w, Finset.mem_univ _, e⟩)]
  have hW' : (StableHlo.held (c.tc : Thread nD τ) (oneRefs sig win wo) (StableHlo.after opss.flatten (withArrays win c V A)) : sProp 𝕄)
      = iprop((((c.tc : Thread nD τ).loc (arrRef win wo)) ↦{fullShare} A wo)
          ∗ unscopedRest win c (fun b => StableHlo.after opss.flatten (withArrays win c V A) (Proc.devRef .tc b))) := by
    rw [held_oneRefs]
    congr 1
    rw [StableHlo.after_of_forall_not_mem _ _ fun op hop => ?_, withArrays_one win wo hwo c V A]
    obtain ⟨ops, hops, hop⟩ := List.mem_flatten.mp hop
    exact hkeep ops hops op hop
  rw [← List.append_nil (opss.map StableHlo.seq)]
  iintro ⟨Hk, Hb, Hp, Hz, Hr⟩
  iapply (wp_seqs_then pcs defs₀ 𝒱₀ c (oneRefs sig win wo) [] opss hsub hfresh (withArrays win c V A)) $$ [Hb Hp Hz]
  · rw [hW]
    isplitl [Hb]; · iexact Hb
    isplitl [Hp]; · iexact Hp
    iexact Hz
  iintro Hb
  rw [chain_nil, wp_pure, hW']
  imodintro
  iapply Hk
  icases Hb with ⟨-, Hp, Hz⟩
  isplitl [Hp]; · iexact Hp
  isplitl [Hz]; · iexact Hz
  iexact Hr

end Lines

/-! ## The frame run -/

section Run

variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run of a region whose input windows may share arrays, continued by the host lines `opss`, which read the
    array of the output window `wo` alone among the arrays (`hsub`), allocate nothing and write no array (`hkeep`). -/
theorem θ_run_frame_shared_around
    (hcell : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (wo : Fin (cfg).W) (hwo : ∀ w, arrRef (cfg).spec w = arrRef (cfg).spec wo → w = wo)
    (hfull : ∀ c, (dats p c).share wo = fullShare)
    (hsub : ∀ ops ∈ opss, ∀ op ∈ ops, op.bufs ⊆ oneRefs sig (cfg).spec wo)
    (hfresh : ∀ ops ∈ opss, ∀ op ∈ ops, op.fresh = ∅)
    (hkeep : ∀ ops ∈ opss, ∀ op ∈ ops, Proc.devRef .tc (arrRef (cfg).spec wo) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hin : ∀ c, ΦA (cfg).spec c ⊢ (dats p c).Φ 0)
    (hout : ∀ c, (dats p c).Φ (Fin.last (cfg).N) ⊢ ΦA (cfg).spec c) :
    θ_run 𝔻 (onTc main) (s₀ m g) (FramePost cfgs dats p (afterTail₀ cfgs dats p V₀ opss)) := by
  classical
  exact Pipeline.θ_run_region_pf_tail (fun q => (cfgs q).toPCfg (Val := Val)) (fun q => (cfgs q).toPCfg_adm) dats () hcell p hw
    (OwnSemFacts.none (cfg).spec) (PreFacts.none _) emb₁ defs₀ 𝒱₀ m g main (fun _ => chain (opss.map StableHlo.seq)) hbody hne harr hstage howed
    (G := fun _ => iprop(emp)) (u₀ := initOf (cells cfgs hcell) (launchToks cfgs hcell))
    (hu₀ := by
      iintro Hu; imodintro
      isplitl [Hu]
      · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (afterTail₀ cfgs dats p V₀ opss c))
    (hX := fun c => by
      rw [unscopedRestP_none]
      iintro ⟨HU, -, -, -, Hp, -⟩; imodintro
      isplitl [Hp]; · iexists _; iexact Hp
      iexact HU)
    (hin := fun c => (show _ ⊢ ΦA (cfg).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (htail := fun c Q' => by
      have harr_eq : ∀ F : (w : Fin (cfg).W) → Buf Val (((cfg).win w).arr.view.loc (c.tc : Thread nD τ)),
          ((dats p c).arrays F : sProp 𝕄)
            = iprop((((c.tc : Thread nD τ).loc (arrRef (cfg).spec wo)) ↦{fullShare} F wo)
                ∗ bigSep (Finset.univ.erase wo) fun w : Fin (cfg).W =>
                    ((cfg).win w).arr.view.loc (c.tc : Thread nD τ) ↦[((cfg).win w).arr.view.set]{(dats p c).share w} F w) := fun F => by
        unfold Dat.arrays
        rw [BI.bigSep_univ_split wo]
        congr 1
        rw [(harr wo).set_eq_univ, hfull c]
      rw [harr_eq]
      iintro ⟨Hk, Hb, ⟨Hp, Hr⟩, Hz⟩
      iapply (tail_seqs_one (fun q => (cfgs q).toPCfg (Val := Val)) defs₀ 𝒱₀ (cfg).spec wo hwo c (V₀ c)
        (fun w => (dats p c).arrAt w (cfg).N) opss hsub hfresh hkeep _ Q')
      isplitl [Hk]
      · iintro ⟨Hp, Hz, Hr⟩
        iapply Hk
        isplitl [Hp Hr]
        · isplitl [Hp]; · iexact Hp
          iexact Hr
        iexact Hz
      isplitl [Hb]; · iexact Hb
      isplitl [Hp]; · iexact Hp
      isplitl [Hz]; · iexact Hz
      iexact Hr)
    (QY := fun c s => ∀ b ∈ restRefs sig (cfg).spec, s.mem ((c.tc : Thread nD τ).loc b) = afterTail₀ cfgs dats p V₀ opss c b)
    (hY := fun c s' => by
      iintro ⟨-, HU, HSI⟩
      unfold unscopedRest
      imodintro
      iapply (pointsTo_read_all (restRefs sig (cfg).spec) (fun b => (c.tc : Thread nD τ).loc b) (afterTail₀ cfgs dats p V₀ opss c) s')
      isplitl [HU] <;> iassumption)
    (hQ := fun s h c => ⟨(h c).1, (h c).2.2⟩)

end Run

end Cert.SharedLaunchTail

end
-- ==== Proof.KernelFrame.lean ====
/-
  The frame of the pairwise-distance kernel: its run to the end, faulting nowhere, with the argument arrays unchanged.

  The program computes row norms on the host, launches one region over 32 blocks of 256 rows, and averages the
  region's column of row sums on the host. The region reads the matrix of points twice — one window walks it 256 rows at
  a time, another holds all of it —, so two windows stand on ONE array; each holds half of the share of that array, with the
  same contents. The other four input windows (the norms as a column and as a row, the labels as a column and as a row)
  and the output window (a column of 256 sums per point) each have an array of their own.

  The body loads its six input blocks whole, computes one value from them, and stores it over the whole output block.
  What the output block holds after the body is therefore that value, a function of the six input blocks at the point;
  every input block is left in place. The lines after the region read only the output array and scalars.
-/
import proofs.«103678_j2851858284970_1_alg».proof.Proof.Gen.Kernel.Launch
import proofs.«103678_j2851858284970_1_alg».proof.Proof.Gen.Kernel.Skeleton
import proofs.«103678_j2851858284970_1_alg».proof.Proof.Gen.Kernel.Points
import proofs.«103678_j2851858284970_1_alg».proof.Proof.LibSharedFrameTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: the launch contents after the nine host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the region
    continued by the later lines, at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the output array, scalars they write, and nothing else: in particular no array
    an input window stands on. -/
theorem sfx_sub : ∀ ops ∈ ([hostOps1] : List (List (HloOp τ sig (Elt F)))), ∀ op ∈ ops,
    op.bufs ⊆ Cert.SharedLaunchTail.oneRefs sig spec0 6 := by
  intro ops hops op hop
  simp only [List.mem_cons, List.mem_nil_iff, or_false] at hops
  rcases hops with rfl
  refine Cert.SharedLaunchTail.sub_oneRefs spec0 6 op ((List.forall_iff_forall_mem.mp hostOps1_sub) op hop) ?_
  simp only [hostOps1, List.mem_cons, List.mem_nil_iff, or_false] at hop
  rcases hop with rfl | rfl | rfl | rfl
  all_goals
    intro w hw
    fin_cases w
    all_goals first
      | exact absurd rfl hw
      | (simp only [StableHlo.nullary_bufs, StableHlo.binary_bufs, Finset.mem_insert, Finset.mem_singleton, not_or]
         repeat' apply And.intro
         all_goals exact StableHlo.devRef_ne_of_ne (by decide))
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And none writes the output array: each writes its own scalar. -/
theorem sfx_keeps : ∀ ops ∈ ([hostOps1] : List (List (HloOp τ sig (Elt F)))), ∀ op ∈ ops,
    Proc.devRef .tc (Pipeline.arrRef spec0 6) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals
    simp only [StableHlo.nullary_writes, StableHlo.binary_writes, Finset.mem_singleton]
    exact StableHlo.devRef_ne_of_ne (by decide)

/-- No host line before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host line after the region writes the first argument, and no window stands on it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

abbrev rX : Rect S256x200 := Rect.unit (s := S256x200) ![0, 0] S256x200.size inb_S256x200_S256x200_0_0
abbrev rA : Rect S8192x200 := Rect.unit (s := S8192x200) ![0, 0] S8192x200.size inb_S8192x200_S8192x200_0_0
abbrev rC : Rect S256x1 := Rect.unit (s := S256x1) ![0, 0] S256x1.size inb_S256x1_S256x1_0_0
abbrev rR : Rect S1x8192 := Rect.unit (s := S1x8192) ![0, 0] S1x8192.size inb_S1x8192_S1x8192_0_0

/-- The output block after the body: its one store, of the body's value of the six input blocks, over the whole block. -/
def out0_6 (i : grid0.Coords) (x0 : Vec F S256x200 .bf16) (x1 : Vec F S8192x200 .bf16) (x2 : Vec F S256x1 .f32) (x3 : Vec F S1x8192 .f32)
    (x4 : Vec F S256x1 .i32) (x5 : Vec F S1x8192 .i32) : Vec F S256x1 .f32 :=
  View.canon [⟨rC, k0_pay1 i (View.ld x0 rX) (View.ld x1 rA) (View.ld x2 rC) (View.ld x3 rR) (View.ld x4 rC) (View.ld x5 rR)⟩]

/-- The one store covers the block. -/
theorem cover0_6 (p0 : Vec F S256x1 .f32) (y : S256x1.Idx) :
    ∃ pc ∈ ([⟨rC, p0⟩] : List (View.Piece (Elt F) S256x1 .f32)), y ∈ pc.1.set :=
  View.cover_of_tiled [⟨rC, p0⟩] S256x1.size (by rfl) y

/-! ## The body's triple -/

set_option maxHeartbeats 4000000 in
/-- The body on whole staging memrefs, the six inputs' at read contents and the output's at anything, runs to the
    continuation holding the inputs' as they were and the output's at `out0_6` of them. -/
theorem sound_kernel (c : Dev nD) (E : Set ℕ) (i : grid0.Coords)
    (arg1 : Memref sig .tc .vmem S256x200 .bf16) (harg1 : arg1.IsWhole) (arg2 : Memref sig .tc .vmem S8192x200 .bf16) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S256x1 .i32) (harg5 : arg5.IsWhole) (arg6 : Memref sig .tc .vmem S1x8192 .i32) (harg6 : arg6.IsWhole)
    (arg7 : Memref sig .tc .vmem S256x1 .f32) (harg7 : arg7.IsWhole)
    (x0 : Vec F S256x200 .bf16) (x1 : Vec F S8192x200 .bf16) (x2 : Vec F S256x1 .f32) (x3 : Vec F S1x8192 .f32)
    (x4 : Vec F S256x1 .i32) (x5 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 i x0 x1 x2 x3 x4 x5)) -∗ K ⟨⟩))
      ⊢ wp frame (wpE (defs₀ (F := F)) Variants.none c none) E
          (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The region's proof data -/

/-- The proof data on core `c`: the arrays as the region finds them; after the body at point `t` each input buffer at its
    block and the output buffer at `out0_6` of the input blocks; nothing of the kernel's own between points; nothing
    owed. The array of points is read through windows 0 and 1, each holding one half of its share; every other array
    is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (grid0.coords t) (iblk m c 0 t) (iblk m c 1 t) (iblk m c 2 t) (iblk m c 3 t) (iblk m c 4 t) (iblk m c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out0_6 (grid0.coords t) (iblk m c 0 t) (iblk m c 1 t) (iblk m c 2 t) (iblk m c 3 t) (iblk m c 4 t) (iblk m c 5 t) := by dsimp only [dats]

/-- An input window's current buffer holds its block at every point, fetched there or not: an unfetched window's block
    index has not moved, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The shared array dealt between its two windows -/

/-- The distinct buffers behind the windows' arrays, one by one. -/
theorem arrBufs0_eq (c : Dev nD) (Vv : (b : Ref sig .tc) → Buf (Elt F) ((c : Thread nD τ).loc b)) :
    (Pipeline.arrBufs spec0 c Vv : sProp 𝕄)
      = iprop((((c : Thread nD τ).loc main_v1) ↦{fullShare} Vv main_v1) ∗ (((c : Thread nD τ).loc main_v4) ↦{fullShare} Vv main_v4)
          ∗ (((c : Thread nD τ).loc main_v5) ↦{fullShare} Vv main_v5) ∗ (((c : Thread nD τ).loc main_v6) ↦{fullShare} Vv main_v6)
          ∗ (((c : Thread nD τ).loc main_v7) ↦{fullShare} Vv main_v7) ∗ (((c : Thread nD τ).loc main_v8) ↦{fullShare} Vv main_v8)) := by
  unfold Pipeline.arrBufs
  rw [show Finset.univ.image (Pipeline.arrRef spec0)
      = insert main_v1 (insert main_v4 (insert main_v5 (insert main_v6 (insert main_v7 {main_v8})))) from by decide,
    BI.bigSep_insert (by decide), BI.bigSep_insert (by decide), BI.bigSep_insert (by decide), BI.bigSep_insert (by decide),
    BI.bigSep_insert (by decide), BI.bigSep_singleton]
  rfl

/-- The windows' arrays at their shares, one by one: the array of points at one half of its share for each of its two windows. -/
theorem arrays0_eq (c : Dev nD) (Fv : (w : Fin cfg0.W) → Buf (Elt F) ((cfg0.win w).arr.view.loc (c : Thread nD τ))) :
    ((dats m 0 c).arrays Fv : sProp 𝕄)
      = iprop((((c : Thread nD τ).loc main_v1) ↦{fullShare.left} Fv 0) ∗ (((c : Thread nD τ).loc main_v1) ↦{fullShare.right} Fv 1)
          ∗ (((c : Thread nD τ).loc main_v4) ↦{fullShare} Fv 2) ∗ (((c : Thread nD τ).loc main_v5) ↦{fullShare} Fv 3)
          ∗ (((c : Thread nD τ).loc main_v6) ↦{fullShare} Fv 4) ∗ (((c : Thread nD τ).loc main_v7) ↦{fullShare} Fv 5)
          ∗ (((c : Thread nD τ).loc main_v8) ↦{fullShare} Fv 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ]
  rfl

/-- The buffers behind the arrays, each whole at the region-entry contents, make the windows' arrays at entry: the array
    of points is split along its share between windows 0 and 1, both at the same contents. -/
theorem hsplit (c : Dev nD) : (Pipeline.arrBufs spec0 c (V m c) : sProp 𝕄) ⊢ (dats m 0 c).arrays ((dats m 0 c).arrAt · 0) := by
  rw [arrBufs0_eq, arrays0_eq]
  iintro ⟨H1, H4, H5, H6, H7, H8⟩
  ihave H1' := (pointsTo_share (PosShare.mem_left_op_right fullShare)).1 $$ H1
  icases H1' with ⟨Ha, Hb⟩
  isplitl [Ha]; · iexact Ha
  isplitl [Hb]; · iexact Hb
  isplitl [H4]; · iexact H4
  isplitl [H5]; · iexact H5
  isplitl [H6]; · iexact H6
  isplitl [H7]; · iexact H7
  iexact H8

/-! ## The run and the frame -/

set_option backward.isDefEq.respectTransparency.types false in
/-- Every weakly fair execution of the program terminates, and every final state has every array of the region at what
    the proof data compute and every other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Cert.SharedLaunchTail.θ_run_frame_shared_around cfgs (dats m) (0 : Fin 1) defs₀ Variants.none cellOf_inj winFacts₀0 block_pos0
    arr_whole0 stage_whole0 m ρ main
    (hbody := fun c => (body_obligation m c).loose) (howed := fun _ _ => rfl) (V₀ := V0 m) (opss := [hostOps1])
    (wo := 6) (hwo := by decide) (hfull := fun _ => rfl) (hsub := sfx_sub) (hfresh := sfx_fresh) (hkeep := sfx_keeps)
    (hmain := hmain m Variants.none) (hsplit := hsplit m) (hin := fun _ => .rfl) (hout := fun _ => .rfl)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Kernel.Frame

end
-- ==== Proof.KernelIdealFrame.lean ====
/-
  The frame of the pairwise-distance kernel: its run to the end, faulting nowhere, with the argument arrays unchanged.

  The program computes row norms on the host, launches one region over 32 blocks of 256 rows, and averages the
  region's column of row sums on the host. The region reads the matrix of points twice — one window walks it 256 rows at
  a time, another holds all of it —, so two windows stand on ONE array; each holds half of the share of that array, with the
  same contents. The other four input windows (the norms as a column and as a row, the labels as a column and as a row)
  and the output window (a column of 256 sums per point) each have an array of their own.

  The body loads its six input blocks whole, computes one value from them, and stores it over the whole output block.
  What the output block holds after the body is therefore that value, a function of the six input blocks at the point;
  every input block is left in place. The lines after the region read only the output array and scalars.
-/
import proofs.«103678_j2851858284970_1_alg».proof.Proof.Gen.KernelIdeal.Launch
import proofs.«103678_j2851858284970_1_alg».proof.Proof.Gen.KernelIdeal.Skeleton
import proofs.«103678_j2851858284970_1_alg».proof.Proof.Gen.KernelIdeal.Points
import proofs.«103678_j2851858284970_1_alg».proof.Proof.LibSharedFrameTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: the launch contents after the nine host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host lines after it: it reduces to the region
    continued by the later lines, at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the output array, scalars they write, and nothing else: in particular no array
    an input window stands on. -/
theorem sfx_sub : ∀ ops ∈ ([hostOps1] : List (List (HloOp τ sig (Elt F)))), ∀ op ∈ ops,
    op.bufs ⊆ Cert.SharedLaunchTail.oneRefs sig spec0 6 := by
  intro ops hops op hop
  simp only [List.mem_cons, List.mem_nil_iff, or_false] at hops
  rcases hops with rfl
  refine Cert.SharedLaunchTail.sub_oneRefs spec0 6 op ((List.forall_iff_forall_mem.mp hostOps1_sub) op hop) ?_
  simp only [hostOps1, List.mem_cons, List.mem_nil_iff, or_false] at hop
  rcases hop with rfl | rfl | rfl | rfl
  all_goals
    intro w hw
    fin_cases w
    all_goals first
      | exact absurd rfl hw
      | (simp only [StableHlo.nullary_bufs, StableHlo.binary_bufs, Finset.mem_insert, Finset.mem_singleton, not_or]
         repeat' apply And.intro
         all_goals exact StableHlo.devRef_ne_of_ne (by decide))
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And none writes the output array: each writes its own scalar. -/
theorem sfx_keeps : ∀ ops ∈ ([hostOps1] : List (List (HloOp τ sig (Elt F)))), ∀ op ∈ ops,
    Proc.devRef .tc (Pipeline.arrRef spec0 6) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals
    simp only [StableHlo.nullary_writes, StableHlo.binary_writes, Finset.mem_singleton]
    exact StableHlo.devRef_ne_of_ne (by decide)

/-- No host line before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- No host line after the region writes the first argument, and no window stands on it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

abbrev rX : Rect S256x200 := Rect.unit (s := S256x200) ![0, 0] S256x200.size inb_S256x200_S256x200_0_0
abbrev rA : Rect S8192x200 := Rect.unit (s := S8192x200) ![0, 0] S8192x200.size inb_S8192x200_S8192x200_0_0
abbrev rC : Rect S256x1 := Rect.unit (s := S256x1) ![0, 0] S256x1.size inb_S256x1_S256x1_0_0
abbrev rR : Rect S1x8192 := Rect.unit (s := S1x8192) ![0, 0] S1x8192.size inb_S1x8192_S1x8192_0_0

/-- The output block after the body: its one store, of the body's value of the six input blocks, over the whole block. -/
def out0_6 (i : grid0.Coords) (x0 : Vec F S256x200 .bf16) (x1 : Vec F S8192x200 .bf16) (x2 : Vec F S256x1 .f32) (x3 : Vec F S1x8192 .f32)
    (x4 : Vec F S256x1 .i32) (x5 : Vec F S1x8192 .i32) : Vec F S256x1 .f32 :=
  View.canon [⟨rC, k0_pay1 i (View.ld x0 rX) (View.ld x1 rA) (View.ld x2 rC) (View.ld x3 rR) (View.ld x4 rC) (View.ld x5 rR)⟩]

/-- The one store covers the block. -/
theorem cover0_6 (p0 : Vec F S256x1 .f32) (y : S256x1.Idx) :
    ∃ pc ∈ ([⟨rC, p0⟩] : List (View.Piece (Elt F) S256x1 .f32)), y ∈ pc.1.set :=
  View.cover_of_tiled [⟨rC, p0⟩] S256x1.size (by rfl) y

/-! ## The body's triple -/

set_option maxHeartbeats 4000000 in
/-- The body on whole staging memrefs, the six inputs' at read contents and the output's at anything, runs to the
    continuation holding the inputs' as they were and the output's at `out0_6` of them. -/
theorem sound_kernel (c : Dev nD) (E : Set ℕ) (i : grid0.Coords)
    (arg1 : Memref sig .tc .vmem S256x200 .bf16) (harg1 : arg1.IsWhole) (arg2 : Memref sig .tc .vmem S8192x200 .bf16) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S256x1 .i32) (harg5 : arg5.IsWhole) (arg6 : Memref sig .tc .vmem S1x8192 .i32) (harg6 : arg6.IsWhole)
    (arg7 : Memref sig .tc .vmem S256x1 .f32) (harg7 : arg7.IsWhole)
    (x0 : Vec F S256x200 .bf16) (x1 : Vec F S8192x200 .bf16) (x2 : Vec F S256x1 .f32) (x3 : Vec F S1x8192 .f32)
    (x4 : Vec F S256x1 .i32) (x5 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 i x0 x1 x2 x3 x4 x5)) -∗ K ⟨⟩))
      ⊢ wp frame (wpE (defs₀ (F := F)) Variants.none c none) E
          (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The region's proof data -/

/-- The proof data on core `c`: the arrays as the region finds them; after the body at point `t` each input buffer at its
    block and the output buffer at `out0_6` of the input blocks; nothing of the kernel's own between points; nothing
    owed. The array of points is read through windows 0 and 1, each holding one half of its share; every other array
    is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (grid0.coords t) (iblk m c 0 t) (iblk m c 1 t) (iblk m c 2 t) (iblk m c 3 t) (iblk m c 4 t) (iblk m c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out0_6 (grid0.coords t) (iblk m c 0 t) (iblk m c 1 t) (iblk m c 2 t) (iblk m c 3 t) (iblk m c 4 t) (iblk m c 5 t) := by dsimp only [dats]

/-- An input window's current buffer holds its block at every point, fetched there or not: an unfetched window's block
    index has not moved, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The shared array dealt between its two windows -/

/-- The distinct buffers behind the windows' arrays, one by one. -/
theorem arrBufs0_eq (c : Dev nD) (Vv : (b : Ref sig .tc) → Buf (Elt F) ((c : Thread nD τ).loc b)) :
    (Pipeline.arrBufs spec0 c Vv : sProp 𝕄)
      = iprop((((c : Thread nD τ).loc main_v1) ↦{fullShare} Vv main_v1) ∗ (((c : Thread nD τ).loc main_v4) ↦{fullShare} Vv main_v4)
          ∗ (((c : Thread nD τ).loc main_v5) ↦{fullShare} Vv main_v5) ∗ (((c : Thread nD τ).loc main_v6) ↦{fullShare} Vv main_v6)
          ∗ (((c : Thread nD τ).loc main_v7) ↦{fullShare} Vv main_v7) ∗ (((c : Thread nD τ).loc main_v8) ↦{fullShare} Vv main_v8)) := by
  unfold Pipeline.arrBufs
  rw [show Finset.univ.image (Pipeline.arrRef spec0)
      = insert main_v1 (insert main_v4 (insert main_v5 (insert main_v6 (insert main_v7 {main_v8})))) from by decide,
    BI.bigSep_insert (by decide), BI.bigSep_insert (by decide), BI.bigSep_insert (by decide), BI.bigSep_insert (by decide),
    BI.bigSep_insert (by decide), BI.bigSep_singleton]
  rfl

/-- The windows' arrays at their shares, one by one: the array of points at one half of its share for each of its two windows. -/
theorem arrays0_eq (c : Dev nD) (Fv : (w : Fin cfg0.W) → Buf (Elt F) ((cfg0.win w).arr.view.loc (c : Thread nD τ))) :
    ((dats m 0 c).arrays Fv : sProp 𝕄)
      = iprop((((c : Thread nD τ).loc main_v1) ↦{fullShare.left} Fv 0) ∗ (((c : Thread nD τ).loc main_v1) ↦{fullShare.right} Fv 1)
          ∗ (((c : Thread nD τ).loc main_v4) ↦{fullShare} Fv 2) ∗ (((c : Thread nD τ).loc main_v5) ↦{fullShare} Fv 3)
          ∗ (((c : Thread nD τ).loc main_v6) ↦{fullShare} Fv 4) ∗ (((c : Thread nD τ).loc main_v7) ↦{fullShare} Fv 5)
          ∗ (((c : Thread nD τ).loc main_v8) ↦{fullShare} Fv 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ]
  rfl

/-- The buffers behind the arrays, each whole at the region-entry contents, make the windows' arrays at entry: the array
    of points is split along its share between windows 0 and 1, both at the same contents. -/
theorem hsplit (c : Dev nD) : (Pipeline.arrBufs spec0 c (V m c) : sProp 𝕄) ⊢ (dats m 0 c).arrays ((dats m 0 c).arrAt · 0) := by
  rw [arrBufs0_eq, arrays0_eq]
  iintro ⟨H1, H4, H5, H6, H7, H8⟩
  ihave H1' := (pointsTo_share (PosShare.mem_left_op_right fullShare)).1 $$ H1
  icases H1' with ⟨Ha, Hb⟩
  isplitl [Ha]; · iexact Ha
  isplitl [Hb]; · iexact Hb
  isplitl [H4]; · iexact H4
  isplitl [H5]; · iexact H5
  isplitl [H6]; · iexact H6
  isplitl [H7]; · iexact H7
  iexact H8

/-! ## The run and the frame -/

set_option backward.isDefEq.respectTransparency.types false in
/-- Every weakly fair execution of the program terminates, and every final state has every array of the region at what
    the proof data compute and every other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Cert.SharedLaunchTail.θ_run_frame_shared_around cfgs (dats m) (0 : Fin 1) defs₀ Variants.none cellOf_inj winFacts₀0 block_pos0
    arr_whole0 stage_whole0 m ρ main
    (hbody := fun c => (body_obligation m c).loose) (howed := fun _ _ => rfl) (V₀ := V0 m) (opss := [hostOps1])
    (wo := 6) (hwo := by decide) (hfull := fun _ => rfl) (hsub := sfx_sub) (hfresh := sfx_fresh) (hkeep := sfx_keeps)
    (hmain := hmain m Variants.none) (hsplit := hsplit m) (hin := fun _ => .rfl) (hout := fun _ => .rfl)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Frame

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.SignedDist.lean ====
/-
  The signed distance of one pair of points, in the two forms the two programs compute it, and the words that index rows.

  For a pair (row r, column c) with squared norms `sr`, `sc` and inner product `g`, the squared distance is
  `sr + sc - 2 g`, the distance the square root of its positive part. One program answers 0 on the diagonal and otherwise
  the distance or `0 -` the distance as the labels agree or not. The other multiplies a sign — 0 on the diagonal, else 1 or
  -1 — by the root of a quantity it has set to 1 on the diagonal. On the extended reals these agree at every input: a
  product with 0 is 0, a product with 1 is the factor, a product with -1 its negative, and `0 - x` is `-x`; no cancelling
  or distributing is used, so nothing needs to be finite.
-/
import Idealize.ShloMosaic.PureOps.Ideal
import Idealize.ShloMosaic.PureOps.Ideal.Laws
import Idealize.ShloMosaic.Lib.ValueIdx

noncomputable section

namespace Cert.SignedDist

open Idealize.ShloMosaic Idealize.ShloMosaic.ValueIdx

/-- The pattern of `1.0` denotes 1. -/
theorem ofBits_one : Ideal.ofBits .f32 0x3F800000#32 = 1 := by
  simp [Ideal.ofBits, Ideal.ieee, -EReal.coe_mul]; norm_num

/-- The pattern of `-1.0` denotes -1. -/
theorem ofBits_neg_one : Ideal.ofBits .f32 0xBF800000#32 = -1 := by
  simp [Ideal.ofBits, Ideal.ieee, -EReal.coe_mul]; norm_num

/-- The distance of a pair from its squared norms and inner product: the root of the positive part of `sr + sc - 2 g`. -/
def dist (sr sc g : EReal) : EReal :=
  Ideal.sqrt (max ((sr + sc) - Ideal.ofBits .f32 0x40000000#32 * g) (Ideal.ofBits .f32 0x00000000#32))

/-- The signed distance, selected: 0 on the diagonal (`dg`), else the distance or `0 -` the distance by the labels (`eq`). -/
def cell (dg eq : BitVec 1) (sr sc g : EReal) : EReal :=
  Scalar.select dg (Ideal.ofBits .f32 0x00000000#32)
    (Scalar.select eq (dist sr sc g) (Ideal.ofBits .f32 0x00000000#32 - dist sr sc g))

/-- The signed distance, multiplied: the sign times the root, the radicand set to 1 on the diagonal. -/
def cellMul (dg eq : BitVec 1) (sr sc g : EReal) : EReal :=
  Scalar.select dg (Ideal.ofBits .f32 0x00000000#32) (Scalar.select eq (Ideal.ofBits .f32 0x3F800000#32) (Ideal.ofBits .f32 0xBF800000#32))
    * Ideal.sqrt (Scalar.select dg (Ideal.ofBits .f32 0x3F800000#32)
        (max ((sr + sc) - Ideal.ofBits .f32 0x40000000#32 * g) (Ideal.ofBits .f32 0x00000000#32)))

/-- The two forms agree on all extended reals. -/
theorem cell_eq_cellMul (dg eq : BitVec 1) (sr sc g : EReal) : cell dg eq sr sc g = cellMul dg eq sr sc g := by
  unfold cell cellMul dist Scalar.select
  rw [Ideal.ofBits_zero_f32, ofBits_one, ofBits_neg_one]
  by_cases h : dg = 1
  · simp only [if_pos h, zero_mul]
  · simp only [if_neg h]
    by_cases h' : eq = 1
    · simp only [if_pos h', one_mul]
    · simp only [if_neg h', zero_sub, neg_one_mul]

/-- The word of row `t · 256 + p` as the kernel computes it: the block's word times 256 plus the row inside the block. -/
theorem row_word (t p : Nat) (ht : t < 32) (hp : p < 256) :
    IntOp.addi (Scalar.muli (BitVec.ofNat 32 t) 256#32) (BitVec.ofNat 32 p) = BitVec.ofNat 32 (t * 256 + p) := by
  unfold IntOp.addi Scalar.muli IntOp.muli
  apply BitVec.eq_of_toNat_eq
  simp only [BitVec.toNat_add, BitVec.toNat_mul, BitVec.toNat_ofNat]
  omega

/-- Adding the zero word changes nothing. -/
theorem add_zero_word (x : BitVec 32) : IntOp.addi x 0#32 = x := by
  unfold IntOp.addi; exact BitVec.add_zero x

end Cert.SignedDist

end
-- ==== Proof.KernelIdealValue.lean ====
/-
  What the pairwise-distance kernel computes, at the ideal values.

  The region's output array is a column of 8192 numbers. Entry r is the sum over all columns c of the signed distance of the
  pair (r, c): 0 on the diagonal, else plus or minus the root of the positive part of |x_r|² + |x_c|² - 2 ⟨x_r, x_c⟩ as the labels
  of r and c agree or not. Here x is the matrix of points (the first argument, its two unit axes dropped; rounding it to a
  shorter format is the identity at these values), the squared norms are the host's row sums of x ∘ x, and the inner product is a sum over the
  200 coordinates.

  Block t of the output holds rows 256 t … 256 t + 255: the body reads rows of x, norms and labels for its own 256 rows through
  windows that move with t, and all 8192 rows of x, norms and labels through windows that stay. The 32 blocks tile the column,
  so the array after the run is that function of the arguments at every entry. The host lines after the region sum the
  column and divide by 8192.
-/
import proofs.«103678_j2851858284970_1_alg».proof.Proof.KernelIdealFrame
import proofs.«103678_j2851858284970_1_alg».proof.Proof.LibColumnLayout
import proofs.«103678_j2851858284970_1_alg».proof.Proof.SignedDist
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open Cert.SignedDist

variable (m : (ℓ : Loc nD τ sig) → Buf (Elt Ideal) ℓ) (ρ : Dev nD → PrngReg)

/-! ## The arrays the region finds -/

/-- The matrix of points: the first argument with its two unit axes dropped. -/
def X (c : Dev nD) : S8192x200.Idx → EReal :=
  shapeCast S8192x200 (m ((c : Thread nD τ).loc main_arg0)) Gen.shapeCasts_S8192x1x1x200_S8192x200
/-- The squared norm of every row: the host's sum of x ∘ x along a row. -/
def SQ (c : Dev nD) : S8192.Idx → EReal :=
  Host.reduceAdd (F := Ideal) (mulf (X m c) (X m c)) (constant (F := Ideal) S_ .f32 0x00000000#32) Gen.reducesTo_S8192x200_S8192_d1 Gen.h_S_
/-- The labels: the second argument. -/
def L (c : Dev nD) : S8192.Idx → BitVec 32 := m ((c : Thread nD τ).loc main_arg1)

/-- The array both point windows stand on is the matrix of points (the change of format is the identity here). -/
theorem V_v1 (c : Dev nD) : (V m c main_v1 : S8192x200.Idx → EReal) = X m c := by
  show StableHlo.after hostOps0 (fun b => m (c, b)) (Proc.devRef .tc main_v1) = _; after_results; rfl
/-- The norms as a column. -/
theorem V_v4 (c : Dev nD) : (V m c main_v4 : S8192x1.Idx → EReal) = shapeCast S8192x1 (SQ m c) Gen.shapeCasts_S8192_S8192x1 := by
  show StableHlo.after hostOps0 (fun b => m (c, b)) (Proc.devRef .tc main_v4) = _; after_results; rfl
/-- The norms as a row. -/
theorem V_v5 (c : Dev nD) : (V m c main_v5 : S1x8192.Idx → EReal) = shapeCast S1x8192 (SQ m c) Gen.shapeCasts_S8192_S1x8192 := by
  show StableHlo.after hostOps0 (fun b => m (c, b)) (Proc.devRef .tc main_v5) = _; after_results; rfl
/-- The labels as a column. -/
theorem V_v6 (c : Dev nD) : (V m c main_v6 : S8192x1.Idx → BitVec 32) = shapeCast S8192x1 (L m c) Gen.shapeCasts_S8192_S8192x1 := by
  show StableHlo.after hostOps0 (fun b => m (c, b)) (Proc.devRef .tc main_v6) = _; after_results; rfl
/-- The labels as a row. -/
theorem V_v7 (c : Dev nD) : (V m c main_v7 : S1x8192.Idx → BitVec 32) = shapeCast S1x8192 (L m c) Gen.shapeCasts_S8192_S1x8192 := by
  show StableHlo.after hostOps0 (fun b => m (c, b)) (Proc.devRef .tc main_v7) = _; after_results; rfl

/-! ## The body's value at an entry -/

/-- A sum along the rows of a 256 × 8192 table, kept as a column: entry (p, ·) is the sum of row p. -/
theorem colsum_apply (src : FVec Ideal S256x8192 .f32) (h : S256x8192.Reduces [1] S256) (hφ : FKind.Formats .f32)
    (hacc : (0x00000000#32 : BitVec 32) = FKind.add.neutral .f32 hφ) (hc : S256.ShapeCasts S256x1) (p : Fin 256) (u : Fin 1) :
    shapeCast S256x1 (multiReduction .add [1] S256 src 0x00000000#32 h hφ hacc) hc (ix2 p u) = ∑ k : Fin 8192, src (ix2 p k) :=
  (Cert.ColumnLayout.shapeCast_a_a1_apply _ hc p u).trans
    ((Ideal.multiReduction_add_single src 0x00000000#32 h hφ hacc (ix1 p)).trans
      (Finset.sum_congr rfl fun k _ => congrArg src (funext fun a => Fin.ext (by
        match a with
        | ⟨0, _⟩ => rfl
        | ⟨1, _⟩ => rfl))))

/-- The product's operand indices at output entry `i` and contraction coordinate `q`: the left operand is read at (row of
    `i`, `q`), the right at (column of `i`, `q`) — both operands are contracted along their second axis. -/
theorem lhs_0 (i : S256x8192.Idx) (q : dot_S256x200_S8192x200_S256x8192_1_1_0_0_n_n.contr.Idx) : (dot_S256x200_S8192x200_S256x8192_1_1_0_0_n_n.lhsIdx i q 0).val = (i 0).val := by
  unfold DotDims.lhsIdx
  rw [dif_neg (show ¬(0 : Fin S256x200.rank) ∈ dot_S256x200_S8192x200_S256x8192_1_1_0_0_n_n.lhsBatch by decide),
    dif_pos (show (0 : Fin S256x200.rank) ∈ dot_S256x200_S8192x200_S256x8192_1_1_0_0_n_n.lhsNonContracting by decide)]
  rfl
theorem lhs_1 (i : S256x8192.Idx) (q : dot_S256x200_S8192x200_S256x8192_1_1_0_0_n_n.contr.Idx) : (dot_S256x200_S8192x200_S256x8192_1_1_0_0_n_n.lhsIdx i q 1).val = (q ⟨0, by decide⟩).val :=
  dot_S256x200_S8192x200_S256x8192_1_1_0_0_n_n.lhsIdx_val_of_single rfl i q
theorem rhs_0 (i : S256x8192.Idx) (q : dot_S256x200_S8192x200_S256x8192_1_1_0_0_n_n.contr.Idx) : (dot_S256x200_S8192x200_S256x8192_1_1_0_0_n_n.rhsIdx i q 0).val = (i 1).val := by
  unfold DotDims.rhsIdx
  rw [dif_neg (show ¬(0 : Fin S8192x200.rank) ∈ dot_S256x200_S8192x200_S256x8192_1_1_0_0_n_n.rhsBatch by decide),
    dif_pos (show (0 : Fin S8192x200.rank) ∈ dot_S256x200_S8192x200_S256x8192_1_1_0_0_n_n.rhsNonContracting by decide)]
  rfl
theorem rhs_1 (i : S256x8192.Idx) (q : dot_S256x200_S8192x200_S256x8192_1_1_0_0_n_n.contr.Idx) : (dot_S256x200_S8192x200_S256x8192_1_1_0_0_n_n.rhsIdx i q 1).val = (q ⟨0, by decide⟩).val :=
  dot_S256x200_S8192x200_S256x8192_1_1_0_0_n_n.rhsIdx_val_of_single rfl i q

/-- The matrix product of a 256 × 200 block with the transpose of the 8192 × 200 matrix, into zero: entry (p, k) is the
    inner product of row p of the one and row k of the other. -/
theorem gram_apply (a : FVec Ideal S256x200 .bf16) (b : FVec Ideal S8192x200 .bf16) (p : Fin 256) (k : Fin 8192) :
    FloatOps.matmul dot_S256x200_S8192x200_S256x8192_1_1_0_0_n_n none a b (constant S256x8192 .f32 0x00000000#32) (ix2 p k)
      = ∑ d : Fin 200, a (ix2 p d) * b (ix2 k d) := by
  rw [Ideal.matmul_constant_zero_apply, ← Equiv.sum_comp (contrEquiv1 dot_S256x200_S8192x200_S256x8192_1_1_0_0_n_n 200 rfl rfl).symm]
  refine Finset.sum_congr rfl fun d _ => ?_
  have hd := contrEquiv1_symm_val dot_S256x200_S8192x200_S256x8192_1_1_0_0_n_n 200 rfl rfl d
  have el : dot_S256x200_S8192x200_S256x8192_1_1_0_0_n_n.lhsIdx (ix2 p k) ((contrEquiv1 dot_S256x200_S8192x200_S256x8192_1_1_0_0_n_n 200 rfl rfl).symm d) = ix2 p d := funext fun ax => Fin.ext (by
    match ax with
    | ⟨0, _⟩ => exact lhs_0 _ _
    | ⟨1, _⟩ => exact (lhs_1 _ _).trans hd)
  have er : dot_S256x200_S8192x200_S256x8192_1_1_0_0_n_n.rhsIdx (ix2 p k) ((contrEquiv1 dot_S256x200_S8192x200_S256x8192_1_1_0_0_n_n 200 rfl rfl).symm d) = ix2 k d := funext fun ax => Fin.ext (by
    match ax with
    | ⟨0, _⟩ => exact rhs_0 _ _
    | ⟨1, _⟩ => exact (rhs_1 _ _).trans hd)
  rw [el, er]

/-- The body's value at entry (p, ·) of its block: the sum over all 8192 columns k of the signed distance of the pair made of
    row p of the block and row k of the whole — the diagonal found by comparing the row's word (the point's word times
    256 plus p) with k's, the labels by comparing the block's column of labels at p with the row of labels at k, the
    distance from the block's norms at p, the norms at k and the inner product of the two rows. -/
theorem pay_apply (i : grid0.Coords) (x0 : Vec Ideal S256x200 .bf16) (x1 : Vec Ideal S8192x200 .bf16) (x2 : Vec Ideal S256x1 .f32)
    (x3 : Vec Ideal S1x8192 .f32) (x4 : Vec Ideal S256x1 .i32) (x5 : Vec Ideal S1x8192 .i32) (p : Fin 256) (u : Fin 1) :
    k0_pay1 (F := Ideal) i x0 x1 x2 x3 x4 x5 (ix2 p u)
      = ∑ k : Fin 8192, cell
          (IntOp.cmpi .eq (IntOp.addi (Scalar.muli (BitVec.ofNat 32 (i 0).val) 256#32) (BitVec.ofNat 32 p.val)) (BitVec.ofNat 32 k.val))
          (IntOp.cmpi .eq (x4 (ix2 p (0 : Fin 1))) (x5 (ix2 (0 : Fin 1) k)))
          (x2 (ix2 p (0 : Fin 1))) (x3 (ix2 (0 : Fin 1) k)) (∑ d : Fin 200, x0 (ix2 p d) * x1 (ix2 k d)) := by
  unfold k0_pay1
  refine (colsum_apply _ Gen.reduces_S256x8192_S256 _ _ Gen.shapeCasts_S256_S256x1 p u).trans (Finset.sum_congr rfl fun k _ => ?_)
  have i0 : iota Kind.tc S256x1 32 [0] Gen.iota_S256x1_d0_w32 (ix2 p (0 : Fin 1)) = BitVec.ofNat 32 p.val :=
    iota_single_apply .tc S256x1 32 0 _ _
  have i1 : iota Kind.tc S1x8192 32 [1] Gen.iota_S1x8192_d1_w32 (ix2 (0 : Fin 1) k) = BitVec.ofNat 32 k.val :=
    iota_single_apply .tc S1x8192 32 1 _ _
  simp only [select, cmpi, sqrt, maximumf, subf, addf, mulf, addi, broadcast, matmul,
    Cert.ColumnLayout.broadcastTo_a1_ab_apply, broadcastTo_1b_ab_apply, shapeCast_self, gram_apply]
  rw [i0, i1]
  rfl

/-! ## From the 32 blocks to the array -/

theorem hz : (![0, 0] : Fin 2 → Nat) = fun _ => 0 := funext fun a => by fin_cases a <;> rfl

/-- Where each window's block sits at point t: the four moving windows at block row t, the three standing ones at the
    origin; and the point's coordinate is t itself. -/
theorem idx_facts : ∀ t : Fin cfg0.N, (grid0.coords t 0).val = t.val
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The sum of the signed distances of row r to every row. -/
def rowsum (c : Dev nD) (r : Fin 8192) : EReal :=
  ∑ k : Fin 8192, cell (IntOp.cmpi .eq (BitVec.ofNat 32 r.val) (BitVec.ofNat 32 k.val))
    (IntOp.cmpi .eq (L m c (ix1 r)) (L m c (ix1 k))) (SQ m c (ix1 r)) (SQ m c (ix1 k))
    (∑ d : Fin 200, X m c (ix2 r d) * X m c (ix2 k d))

/-- The output array as one function of the arguments: entry (r, ·) is the row sum of r. -/
def G (c : Dev nD) : S8192x1.Idx → EReal := fun i => rowsum m c ⟨(i 0).val, idx2_lt0 i⟩

/-- What point t writes back is block t of that function. -/
theorem flushed6_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero hz]
  simp only [View.ld_unit_zero (S := S256x200) hz, View.ld_unit_zero (S := S8192x200) hz, View.ld_unit_zero (S := S256x1) hz,
    View.ld_unit_zero (S := S1x8192) hz]
  obtain ⟨e00, e0, e0', e1, e1', e2, e2', e3, e3', e4, e4', e5, e5', e6, e6'⟩ := idx_facts t
  have hN : grid0.N = 32 := Gen.N_0
  have ht : t.val < 32 := hN ▸ t.isLt
  funext j
  obtain ⟨p, u, rfl⟩ : ∃ (p : Fin 256) (u : Fin 1), j = ix2 p u := ⟨j 0, j 1, eq_ix2 j⟩
  have hp : p.val < 256 := p.isLt
  have hr : t.val * 256 + p.val < 8192 := by omega
  show k0_pay1 (grid0.coords t) (iblk m c 0 t) (iblk m c 1 t) (iblk m c 2 t) (iblk m c 3 t) (iblk m c 4 t) (iblk m c 5 t) (ix2 p u)
    = G m c (((cfg0.win 6).blk t).view.emb (ix2 p u))
  refine (pay_apply (grid0.coords t) (iblk m c 0 t) (iblk m c 1 t) (iblk m c 2 t) (iblk m c 3 t) (iblk m c 4 t) (iblk m c 5 t) p u).trans ?_
  have hG : G m c (((cfg0.win 6).blk t).view.emb (ix2 p u)) = rowsum m c ⟨t.val * 256 + p.val, hr⟩ := by
    unfold G
    refine congrArg (rowsum m c) (Fin.ext ?_)
    show win0_6.index t (0 : Fin 2) * 256 + 1 * p.val = t.val * 256 + p.val
    omega
  rw [hG]
  unfold rowsum
  refine Finset.sum_congr rfl fun k _ => ?_
  -- the row's word
  have w : IntOp.addi (Scalar.muli (BitVec.ofNat 32 (grid0.coords t 0).val) 256#32) (BitVec.ofNat 32 p.val)
      = BitVec.ofNat 32 (t.val * 256 + p.val) := by rw [e00]; exact row_word t.val p.val ht hp
  -- the block of norms at p is the norm of row 256 t + p
  have a2 : iblk m c 2 t (ix2 p (0 : Fin 1)) = SQ m c (ix1 ⟨t.val * 256 + p.val, hr⟩) := by
    show V m c main_v4 (((cfg0.win 2).blk t).view.emb (ix2 p (0 : Fin 1))) = _
    rw [V_v4]
    have e : ((cfg0.win 2).blk t).view.emb (ix2 p (0 : Fin 1)) = ix2 (⟨t.val * 256 + p.val, hr⟩ : Fin 8192) (0 : Fin 1) :=
      funext fun a => Fin.ext (by
        match a with
        | ⟨0, _⟩ => show win0_2.index t (0 : Fin 2) * 256 + 1 * p.val = t.val * 256 + p.val; omega
        | ⟨1, _⟩ => show win0_2.index t (1 : Fin 2) * 1 + 1 * 0 = 0; omega)
    rw [e, Cert.ColumnLayout.shapeCast_a_a1_apply]
  have a3 : iblk m c 3 t (ix2 (0 : Fin 1) k) = SQ m c (ix1 k) := by
    show V m c main_v5 (((cfg0.win 3).blk t).view.emb (ix2 (0 : Fin 1) k)) = _
    rw [V_v5]
    have e : ((cfg0.win 3).blk t).view.emb (ix2 (0 : Fin 1) k) = ix2 (0 : Fin 1) k :=
      funext fun a => Fin.ext (by
        match a with
        | ⟨0, _⟩ => show win0_3.index t (0 : Fin 2) * 1 + 1 * 0 = 0; omega
        | ⟨1, _⟩ => show win0_3.index t (1 : Fin 2) * 8192 + 1 * k.val = k.val; omega)
    rw [e, shapeCast_a_1a_apply]
  have a4 : iblk m c 4 t (ix2 p (0 : Fin 1)) = L m c (ix1 ⟨t.val * 256 + p.val, hr⟩) := by
    show V m c main_v6 (((cfg0.win 4).blk t).view.emb (ix2 p (0 : Fin 1))) = _
    rw [V_v6]
    have e : ((cfg0.win 4).blk t).view.emb (ix2 p (0 : Fin 1)) = ix2 (⟨t.val * 256 + p.val, hr⟩ : Fin 8192) (0 : Fin 1) :=
      funext fun a => Fin.ext (by
        match a with
        | ⟨0, _⟩ => show win0_4.index t (0 : Fin 2) * 256 + 1 * p.val = t.val * 256 + p.val; omega
        | ⟨1, _⟩ => show win0_4.index t (1 : Fin 2) * 1 + 1 * 0 = 0; omega)
    rw [e, Cert.ColumnLayout.shapeCast_a_a1_apply]
  have a5 : iblk m c 5 t (ix2 (0 : Fin 1) k) = L m c (ix1 k) := by
    show V m c main_v7 (((cfg0.win 5).blk t).view.emb (ix2 (0 : Fin 1) k)) = _
    rw [V_v7]
    have e : ((cfg0.win 5).blk t).view.emb (ix2 (0 : Fin 1) k) = ix2 (0 : Fin 1) k :=
      funext fun a => Fin.ext (by
        match a with
        | ⟨0, _⟩ => show win0_5.index t (0 : Fin 2) * 1 + 1 * 0 = 0; omega
        | ⟨1, _⟩ => show win0_5.index t (1 : Fin 2) * 8192 + 1 * k.val = k.val; omega)
    rw [e, shapeCast_a_1a_apply]
  have a0 : ∀ d : Fin 200, iblk m c 0 t (ix2 p d) = X m c (ix2 (⟨t.val * 256 + p.val, hr⟩ : Fin 8192) d) := fun d => by
    show V m c main_v1 (((cfg0.win 0).blk t).view.emb (ix2 p d)) = _
    rw [V_v1]
    refine congrArg (X m c) (funext fun a => Fin.ext ?_)
    match a with
    | ⟨0, _⟩ => show win0_0.index t (0 : Fin 2) * 256 + 1 * p.val = t.val * 256 + p.val; omega
    | ⟨1, _⟩ => show win0_0.index t (1 : Fin 2) * 200 + 1 * d.val = d.val; omega
  have a1 : ∀ d : Fin 200, iblk m c 1 t (ix2 k d) = X m c (ix2 k d) := fun d => by
    show V m c main_v1 (((cfg0.win 1).blk t).view.emb (ix2 k d)) = _
    rw [V_v1]
    refine congrArg (X m c) (funext fun a => Fin.ext ?_)
    match a with
    | ⟨0, _⟩ => show win0_1.index t (0 : Fin 2) * 8192 + 1 * k.val = k.val; omega
    | ⟨1, _⟩ => show win0_1.index t (1 : Fin 2) * 200 + 1 * d.val = d.val; omega
  rw [w, a2, a3, a4, a5]
  exact congrArg _ (Finset.sum_congr rfl fun d _ => by rw [a0 d, a1 d])

/-- A row of the column lies in point t's block exactly when it is one of the block's 256 rows. -/
theorem mem_blk6 (t : Fin cfg0.N) (i : S8192x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v8).slice (win0_6.rect t)).set ↔ _
  rw [View.set_slice_whole, Rect.mem_set_unit]
  exact Iff.rfl

/-- The 32 blocks cover the column: row r is in block r / 256. -/
theorem cover6 (i : S8192x1.Idx) : ∃ t : Fin cfg0.N, (cfg0.win 6).flush t = true ∧ i ∈ ((cfg0.win 6).blk t).view.set := by
  have hN : grid0.N = 32 := Gen.N_0
  have hi0 : (i 0).val < 8192 := idx2_lt0 i
  have hi1 : (i 1).val < 1 := idx2_lt1 i
  have hlt : (i 0).val / 256 < grid0.N := by rw [hN]; omega
  refine ⟨⟨(i 0).val / 256, hlt⟩, flush0_6 _, ?_⟩
  rw [mem_blk6]
  obtain ⟨-, -, -, -, -, -, -, -, -, -, -, -, -, e6, e6'⟩ := idx_facts ⟨(i 0).val / 256, hlt⟩
  intro a
  match a with
  | ⟨0, _⟩ =>
    show win0_6.index ⟨(i 0).val / 256, hlt⟩ (0 : Fin 2) * 256 ≤ (i 0).val ∧ (i 0).val < win0_6.index ⟨(i 0).val / 256, hlt⟩ (0 : Fin 2) * 256 + 256
    rw [e6]; show (i 0).val / 256 * 256 ≤ (i 0).val ∧ (i 0).val < (i 0).val / 256 * 256 + 256; omega
  | ⟨1, _⟩ =>
    show win0_6.index ⟨(i 0).val / 256, hlt⟩ (1 : Fin 2) * 1 ≤ (i 1).val ∧ (i 1).val < win0_6.index ⟨(i 0).val / 256, hlt⟩ (1 : Fin 2) * 1 + 1
    rw [e6']; omega

/-- The output array after the run. -/
theorem final6 (c : Dev nD) : (dats m 0 c).arrAt 6 cfg0.N = G m c :=
  (dats m 0 c).arrAt_eq_of_cover 6 (G m c) (fun t _ => flushed6_eq m c t) cover6

/-! ## The host lines after the region -/

/-- The program's result: the column summed, divided by 8192. -/
def result (c : Dev nD) : S_.Idx → EReal :=
  Host.divf (F := Ideal)
    (Host.reduceAdd (F := Ideal) (G m c) (constant (F := Ideal) S_ .f32 0x00000000#32) Gen.reducesTo_S8192x1_S_d0_1 Gen.h_S_)
    (constant (F := Ideal) S_ .f32 0x46000000#32)

/-- The result at its one index: the sum of the whole column from the zero word, divided by the word of 8192. -/
theorem result_apply (c : Dev nD) (i : S_.Idx) :
    result m c i = Ideal.div (Ideal.ofBits .f32 0x00000000#32 + ∑ j : S8192x1.Idx, G m c j) (Ideal.ofBits .f32 0x46000000#32) := by
  unfold result
  generalize G m c = y0
  refine (show _ = Ideal.div (Host.reduceAdd (F := Ideal) y0 (constant (F := Ideal) S_ .f32 0x00000000#32)
      Gen.reducesTo_S8192x1_S_d0_1 Gen.h_S_ i) (Ideal.ofBits .f32 0x46000000#32) from rfl).trans ?_
  refine congrArg (fun z => Ideal.div z (Ideal.ofBits .f32 0x46000000#32)) ?_
  simp only [Host.reduceAdd, Ideal.hostReduceAdd_def]
  exact Ideal.hostReduceAdd_total Gen.reducesTo_S8192x1_S_d0_1 (fun b => b.elim0) y0 _ i

/-- What the lines after the region leave in the result buffer. -/
theorem tail_v10 (c : Dev nD) :
    Pipeline.afterTail₀ cfgs (dats m) 0 (V0 m) [hostOps1] c main_v10 = result m c := by
  unfold Pipeline.afterTail₀
  show StableHlo.after hostOps1 _ (Proc.devRef .tc main_v10) = _
  after_results
  rw [Cert.SharedLaunchTail.withArrays_one spec0 6 (by decide) c _ _, final6]
  rfl

/-- The run, read: the result buffer ends at `result`, both arguments as launched. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (tail_v10 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Val

end
-- ==== Proof.ReferenceValue.lean ====
/-
  What the reference computes for one row, at the ideal values.

  The reference forms the whole 8192 × 8192 table of signed distances on the host and sums each row. Read at entry (r, k),
  its table is a sign — 0 on the diagonal, else 1 or -1 as the labels of r and k agree or not — times the root of a radicand
  that is 1 on the diagonal and the positive part of |x_r|² + |x_k|² - 2 ⟨x_r, x_k⟩ elsewhere; that product is the signed
  distance of the pair. The row sum starts from the zero word, which adds nothing.
-/
import proofs.«103678_j2851858284970_1_alg».proof.Proof.Gen.ReferenceIdeal.Read
import proofs.«103678_j2851858284970_1_alg».proof.Proof.SignedDist
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open Cert.SignedDist

variable (x0 : (⟨S8192x1x1x200, .f32⟩ : BufTy).Contents (Elt Ideal)) (x1 : (⟨S8192, .i32⟩ : BufTy).Contents (Elt Ideal))

/-- The reference's table at (r, k) is the signed distance of the pair: the diagonal by comparing the two coordinates' words,
    the labels read at r and at k, the norms the host's row sums at r and at k, the inner product a sum over the 200
    coordinates of the points' matrix at rows r and k (the transpose read back). -/
theorem cell_apply (r k : Fin 8192) :
    val_main_v30 (F := Ideal) x0 x1 (ix2 r k)
      = cell (IntOp.cmpi .eq (BitVec.ofNat 32 r.val) (BitVec.ofNat 32 k.val))
          (IntOp.cmpi .eq (x1 (ix1 r)) (x1 (ix1 k))) (val_main_v2 (F := Ideal) x0 (ix1 r)) (val_main_v2 (F := Ideal) x0 (ix1 k))
          (∑ d : Fin 200, val_main_v0 (F := Ideal) x0 (ix2 r d) * val_main_v0 (F := Ideal) x0 (ix2 k d)) := by
  rw [cell_eq_cellMul]
  have i22 : idx_main_v22 (idx_main_v24 (ix2 r k)) = ix1 r := funext fun a => Fin.ext (by match a with | ⟨0, _⟩ => rfl)
  have i23 : idx_main_v23 (idx_main_v25 (ix2 r k)) = ix1 k := funext fun a => Fin.ext (by match a with | ⟨0, _⟩ => rfl)
  have i5 : idx_main_v5 (idx_main_v7 (ix2 r k)) = ix1 r := funext fun a => Fin.ext (by match a with | ⟨0, _⟩ => rfl)
  have i6 : idx_main_v6 (idx_main_v8 (ix2 r k)) = ix1 k := funext fun a => Fin.ext (by match a with | ⟨0, _⟩ => rfl)
  have il : ∀ d : Fin 200, lidx_main_v4 (ix2 r k) d = ix2 r d := fun d => funext fun a => Fin.ext (by
    match a with
    | ⟨0, _⟩ => rfl
    | ⟨1, _⟩ => rfl)
  have ir : ∀ d : Fin 200, idx_main_v3 (ridx_main_v4 (ix2 r k) d) = ix2 k d := fun d => funext fun a => Fin.ext (by
    match a with
    | ⟨0, _⟩ => rfl
    | ⟨1, _⟩ => rfl)
  simp only [val_main_v30_apply, val_main_v29_apply, val_main_v28_apply, val_main_v17_apply, val_main_v16_apply, val_main_v13_apply, val_main_v15_apply, val_main_c_apply, val_main_v14_apply, val_main_call2_v0_apply, val_main_cst_5_apply, val_main_v27_apply, val_main_v26_apply, val_main_v24_apply, val_main_v22_apply, val_main_v25_apply, val_main_v23_apply, val_main_call1_v0_apply, val_main_cst_3_apply, val_main_call1_v1_apply, val_main_cst_4_apply, val_main_v21_apply, val_main_v20_apply, val_main_call0_v1_apply, val_main_call0_v0_apply, val_main_cst_2_apply, val_main_v19_apply, val_main_v12_apply, val_main_v9_apply, val_main_v7_apply, val_main_v5_apply, val_main_v8_apply, val_main_v6_apply, val_main_v11_apply, val_main_v10_apply, val_main_cst_0_apply, val_main_v4_apply, val_main_v3_apply, val_main_v18_apply, val_main_cst_1_apply, i22, i23, i5, i6, il, ir, add_zero_word]
  rfl

/-- The reference's sum of row r: the sum over k of the signed distances of (r, k). -/
theorem rowsum_apply (r : Fin 8192) :
    val_main_v31 (F := Ideal) x0 x1 (ix1 r)
      = ∑ k : Fin 8192, cell (IntOp.cmpi .eq (BitVec.ofNat 32 r.val) (BitVec.ofNat 32 k.val))
          (IntOp.cmpi .eq (x1 (ix1 r)) (x1 (ix1 k))) (val_main_v2 (F := Ideal) x0 (ix1 r)) (val_main_v2 (F := Ideal) x0 (ix1 k))
          (∑ d : Fin 200, val_main_v0 (F := Ideal) x0 (ix2 r d) * val_main_v0 (F := Ideal) x0 (ix2 k d)) := by
  rw [val_main_v31_apply]
  have z : (val_main_cst_6 (F := Ideal)) (Shape.Idx.first h_S_) = 0 := Ideal.ofBits_zero_f32
  rw [z, zero_add]
  refine Finset.sum_congr rfl fun k _ => ?_
  have i31 : idx_main_v31 (ix1 r) k = ix2 r k := funext fun a => Fin.ext (by
    match a with
    | ⟨0, _⟩ => rfl
    | ⟨1, _⟩ => rfl)
  rw [i31]
  exact cell_apply x0 x1 r k

/-- The reference's result: the sum of all row sums, from the zero word, divided by the word of 8192. -/
theorem result_apply (i : S_.Idx) :
    val_main_v33 (F := Ideal) x0 x1 i
      = Ideal.div (Ideal.ofBits .f32 0x00000000#32 + ∑ j : S8192.Idx, val_main_v31 (F := Ideal) x0 x1 j) (Ideal.ofBits .f32 0x46000000#32) := by
  rw [val_main_v33_apply, val_main_v32_apply]
  rfl

end Cert.ReferenceIdeal.RefValue

end
-- ==== Proof.Bridge.lean ====
/-
  The two programs compute one number.

  The kernel's result is the sum, from zero, of a column whose entry r is the sum over k of the signed distance of the pair
  (r, k), divided by 8192; the reference's is the sum, from zero, of a vector whose entry r is the same sum, divided by 8192.
  The points' matrix, the squared norms and the labels that enter a signed distance are the same terms of the two argument
  arrays on both sides. A column of 8192 rows and one column has the entries of a vector of 8192, so the two outer sums are one
  sum re-indexed.
-/
import proofs.«103678_j2851858284970_1_alg».proof.Proof.KernelIdealValue
import proofs.«103678_j2851858284970_1_alg».proof.Proof.ReferenceValue

set_option maxRecDepth 16384

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

/-- The entries of a column of 8192 rows and the entries of a vector of 8192: row r of the one is entry r of the other. -/
def colEquiv : Cert.KernelIdeal.S8192x1.Idx ≃ Cert.ReferenceIdeal.S8192.Idx where
  toFun j := ix1 ⟨(j 0).val, idx2_lt0 j⟩
  invFun i := ix2 ⟨(i 0).val, (i 0).isLt⟩ (0 : Fin 1)
  left_inv j := funext fun a => Fin.ext (by
    match a with
    | ⟨0, _⟩ => rfl
    | ⟨1, _⟩ => show 0 = (j 1).val; have := idx2_lt1 j; omega)
  right_inv i := funext fun a => Fin.ext (by
    match a with
    | ⟨0, _⟩ => rfl)

/-- Row by row the reference's sum is the kernel's: the same signed distances of the same arrays. -/
theorem rows_agree (c : Dev Cert.KernelIdeal.nD) (r : Fin 8192) :
    Cert.ReferenceIdeal.Read.val_main_v31 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1)) (ix1 r)
      = Cert.KernelIdeal.Val.rowsum m c r :=
  (Cert.ReferenceIdeal.RefValue.rowsum_apply _ _ r).trans rfl

/-- The reference's result of the kernel's arguments is the kernel's result. -/
theorem result_eq (c : Dev Cert.KernelIdeal.nD) :
    Cert.ReferenceIdeal.Read.val_main_v33 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
      = Cert.KernelIdeal.Val.result m c := by
  funext i
  refine (Cert.ReferenceIdeal.RefValue.result_apply _ _ i).trans (Eq.trans ?_ (Cert.KernelIdeal.Val.result_apply m c i).symm)
  refine congrArg (fun z => Ideal.div (Ideal.ofBits .f32 0x00000000#32 + z) (Ideal.ofBits .f32 0x46000000#32)) ?_
  refine (Fintype.sum_equiv colEquiv _ _ fun j => ?_).symm
  exact (rows_agree m c ⟨(j 0).val, idx2_lt0 j⟩).symm

end Cert.Bridge

end
-- ==== Proof.lean ====
/-
  The mean signed pairwise distance of 8192 labelled points in 200 dimensions, by a tiled kernel and by a whole-table
  reference: the two idealized programs end with equal results, and all three programs run to the end with their
  arguments unchanged.

  For points x_0 … x_8191 with labels, the signed distance of a pair (r, k) is 0 when r = k and otherwise plus or minus
  the root of the positive part of |x_r|² + |x_k|² - 2 ⟨x_r, x_k⟩, plus when the labels agree. Both programs sum the signed
  distances of every pair and divide by 8192. The kernel walks the rows 256 at a time, forming each block's 256 × 8192 table
  and summing along it; the reference forms the whole 8192 × 8192 table. The kernel selects 0, the distance or 0 minus the
  distance; the reference multiplies a sign 0, 1 or -1 by the root of a radicand it has set to 1 on the diagonal. On the
  extended reals these are the same number at every input (0 · y = 0, 1 · y = y, -1 · y = -y, 0 - y = -y), so the equality uses
  no finiteness of the inputs; a change of float format is the identity there, and every sum is a finite sum whose
  grouping does not matter.

  The frames: the reference is a straight line of host operations, so its generated run gives its frame. The kernel's
  region reads the matrix of points through two windows on one array; its frame run deals that array's share between
  the two windows and runs the host lines after the region beside them (the word-level program and its idealization have
  the same text, so one proof serves both, read at either instance). The pass that idealizes the kernel rewrote nothing,
  so there is nothing to preserve.
-/
import proofs.«103678_j2851858284970_1_alg».proof.Defs
import proofs.«103678_j2851858284970_1_alg».proof.Proof.Gen.Kernel
import proofs.«103678_j2851858284970_1_alg».proof.Proof.Gen.Kernel.Skeleton
import proofs.«103678_j2851858284970_1_alg».proof.Proof.Gen.Kernel.Launch
import proofs.«103678_j2851858284970_1_alg».proof.Proof.Gen.Kernel.Points
import proofs.«103678_j2851858284970_1_alg».proof.Proof.Gen.KernelIdeal
import proofs.«103678_j2851858284970_1_alg».proof.Proof.Gen.KernelIdeal.Skeleton
import proofs.«103678_j2851858284970_1_alg».proof.Proof.Gen.KernelIdeal.Launch
import proofs.«103678_j2851858284970_1_alg».proof.Proof.Gen.KernelIdeal.Points
import proofs.«103678_j2851858284970_1_alg».proof.Proof.Gen.ReferenceIdeal
import proofs.«103678_j2851858284970_1_alg».proof.Proof.Gen.Pre_finite_inputs
import proofs.«103678_j2851858284970_1_alg».proof.Proof.Gen.ReferenceIdeal.Read
import proofs.«103678_j2851858284970_1_alg».proof.Proof.KernelFrame
import proofs.«103678_j2851858284970_1_alg».proof.Proof.KernelIdealFrame
import proofs.«103678_j2851858284970_1_alg».proof.Proof.KernelIdealValue
import proofs.«103678_j2851858284970_1_alg».proof.Proof.ReferenceValue
import proofs.«103678_j2851858284970_1_alg».proof.Proof.Bridge
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Frame.frame m ρ

/-- So does its idealization. -/
theorem frame_ki : Cert.frame_KernelIdeal := fun m ρ _ => Cert.KernelIdeal.Frame.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end at the mean signed distance of those arguments. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v33_eq]
  exact Cert.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
